-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64x64 : Shape := ⟨3, ![32768, 64, 64]⟩
abbrev S4096x2 : Shape := ⟨2, ![4096, 2]⟩
abbrev S_ : Shape := ⟨0, ![]⟩

class Facts : Prop where
  bcast_S_S32768x64x64 : S_.BroadcastsInDim S32768x64x64 (![] : Fin 0 → Fin S32768x64x64.rank)
  reducesTo_S32768x64x64_S_d0_1_2 : S32768x64x64.ReducesTo [0, 1, 2] S_
  h_S_ : 0 < S_.numel

variable [Facts]

def fn {F : FTy → Type} [FloatOps F] (main_arg0 : FVec F S32768x64x64 .f32) (main_arg1 : IVec S4096x2 32) : IVec S_ 1 :=
  let main_v0 : FVec F S32768x64x64 .f32 := Host.absf main_arg0
  let main_cst : FVec F S_ .f32 := constant S_ .f32 0x7F800000#32
  let main_v1 : FVec F S32768x64x64 .f32 := broadcastInDim S32768x64x64 ![] bcast_S_S32768x64x64 main_cst
  let main_v2 : IVec S32768x64x64 1 := cmpf .olt main_v0 main_v1
  let main_c : IVec S_ 1 := constantI S_ 1 1#1
  let main_v3 : IVec S_ 1 := (fun x v => Host.reduce IntOp.andi x v reducesTo_S32768x64x64_S_d0_1_2 h_S_) main_v2 main_c
  main_v3
-- ==== Kernel.lean ====
abbrev S32768x64x64 : Shape := ⟨3, ![32768, 64, 64]⟩
abbrev S4096x2 : Shape := ⟨2, ![4096, 2]⟩
abbrev S256x64x64 : Shape := ⟨3, ![256, 64, 64]⟩
abbrev S256x64 : Shape := ⟨2, ![256, 64]⟩
abbrev S256x1x64 : Shape := ⟨3, ![256, 1, 64]⟩

abbrev nBuf : Space → Nat
  | .hbm => 3
  | .vmem => 4
  | .smem => 0
  | _ => 0

abbrev bufTy : (tb : Table) → Fin (tcTables nBuf tb) → BufTy
  | .hbm, ⟨0, _⟩ => ⟨S32768x64x64, .f32⟩
  | .hbm, ⟨1, _⟩ => ⟨S4096x2, .i32⟩
  | .hbm, ⟨2, _⟩ => ⟨S32768x64x64, .f32⟩
  | .local _ .vmem, ⟨0, _⟩ => ⟨S256x64x64, .f32⟩
  | .local _ .vmem, ⟨1, _⟩ => ⟨S256x64x64, .f32⟩
  | .local _ .vmem, ⟨2, _⟩ => ⟨S256x64x64, .f32⟩
  | .local _ .vmem, ⟨3, _⟩ => ⟨S256x64x64, .f32⟩
  | _, _ => ⟨S32768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x64_S256x64x64_0_0_0 : ∀ a, (![0, 0, 0] : Fin 3 → Nat) a + S256x64x64.size a ≤ S256x64x64.size a
  h_S256x64x64 : 0 < S256x64x64.numel
  reduces_S256x64x64_S256x64 : S256x64x64.Reduces [1] S256x64
  shapeCasts_S256x64_S256x1x64 : S256x64.ShapeCasts S256x1x64
  shapeCasts_S256x1x64_S256x1x64 : S256x1x64.ShapeCasts S256x1x64
  broadcasts_S256x1x64_S256x64x64 : S256x1x64.Broadcasts S256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x64.size a ≤ S32768x64x64.size a
  hwx0_0 : ∀ i : grid0.Coords, EltTy.bits .f32 = 32 ∨ (Rect.block (s := S32768x64x64) S256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S32768x64x64.size a
  hwx0_1 : ∀ i : grid0.Coords, EltTy.bits .f32 = 32 ∨ (Rect.block (s := S32768x64x64) S256x64x64.size (cc0_transform_1 i) (hinb0_1 i)).WholeWords (EltTy.packing .f32)

variable [Facts₀]

abbrev win0_0 : Pipeline.Window sig grid0 :=
  Pipeline.Window.ofSpec (Memref.whole main_arg0) S256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x64x64 : Shape := ⟨3, ![32768, 64, 64]⟩
abbrev S4096x2 : Shape := ⟨2, ![4096, 2]⟩
abbrev S_ : Shape := ⟨0, ![]⟩
abbrev S32768x64 : Shape := ⟨2, ![32768, 64]⟩
abbrev S32768x1x64 : Shape := ⟨3, ![32768, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S32768x64x64, .f32⟩
  | .hbm, ⟨1, _⟩ => ⟨S4096x2, .i32⟩
  | .hbm, ⟨2, _⟩ => ⟨S_, .f32⟩
  | .hbm, ⟨3, _⟩ => ⟨S32768x64, .f32⟩
  | .hbm, ⟨4, _⟩ => ⟨S32768x1x64, .f32⟩
  | .hbm, ⟨5, _⟩ => ⟨S_, .f32⟩
  | .hbm, ⟨6, _⟩ => ⟨S32768x1x64, .f32⟩
  | .hbm, ⟨7, _⟩ => ⟨S32768x1x64, .f32⟩
  | .hbm, ⟨8, _⟩ => ⟨S32768x64x64, .f32⟩
  | _, _ => ⟨S32768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S32768x64x64_S32768x64_d1 : S32768x64x64.ReducesTo [1] S32768x64
  h_S_ : 0 < S_.numel
  bcast_S32768x64_S32768x1x64_0_2 : S32768x64.BroadcastsInDim S32768x1x64 (![0, 2] : Fin 2 → Fin S32768x1x64.rank)
  bcast_S_S32768x1x64 : S_.BroadcastsInDim S32768x1x64 (![] : Fin 0 → Fin S32768x1x64.rank)
  bcast_S32768x1x64_S32768x64x64_0_1_2 : S32768x1x64.BroadcastsInDim S32768x64x64 (![0, 1, 2] : Fin 3 → Fin S32768x64x64.rank)

variable [Facts₀]

class Facts : Prop extends Facts₀ where

variable [Facts]
-- ==== Proof.MeanSpec.lean ====
/-
  The function both programs compute.

  The input is an array x of extended reals indexed by (n, d, t) with n < 32768, d < 64, t < 64.  The result
  has the same index set, and its entry at (n, d, t) does not depend on d: it is the mean of the column
  (n, ·, t), written exactly as both programs write it — the sum over the 64 middle coordinates, divided by the
  number whose binary32 pattern is 0x42800000 (that is, 64).  Nothing about that divisor is used below except that
  the two programs carry the same pattern, so it is never evaluated.
-/
import Idealize.ShloMosaic.PureOps.Ideal
import Idealize.ShloMosaic.Lib.ValueIdx

noncomputable section

namespace Cert.FeatureMean

open Idealize.ShloMosaic Idealize.ShloMosaic.ValueIdx

/-- The index set (n, d, t) of the input and of the result. -/
abbrev Arr : Shape := ⟨3, ![32768, 64, 64]⟩

/-- The index (n, k, t) of the column through `i = (n, d, t)`: the middle coordinate replaced by `k`. -/
abbrev column (i : Arr.Idx) (k : Fin 64) : Arr.Idx :=
  ix3 (n0 := 32768) (n1 := 64) (n2 := 64) (i 0) k (i 2)

/-- The mean over the middle axis, repeated along it: at (n, d, t) the sum over k of x (n, k, t), divided by 64. -/
def featureMean (x : Arr.Idx → EReal) : Arr.Idx → EReal := fun i =>
  Ideal.div (∑ k : Fin 64, x (column i k)) (Ideal.ofBits .f32 0x42800000#32)

theorem featureMean_apply (x : Arr.Idx → EReal) (i : Arr.Idx) :
    featureMean x i = Ideal.div (∑ k : Fin 64, x (column i k)) (Ideal.ofBits .f32 0x42800000#32) := rfl

end Cert.FeatureMean

end
-- ==== Proof.ReferenceMean.lean ====
/-
  The reference computes the feature mean.

  Read stage by stage at an index (n, d, t): the last stage repeats along d the entry (n, 0, t) of a quotient;
  the quotient's numerator is the entry (n, t) of the sum over the middle axis, which at the exact reals is the
  initial value 0 plus the sum over k of x (n, k, t); its denominator is the constant 64 spread over the shape.
  Adding 0 changes nothing, so the entry is the sum over k of x (n, k, t) divided by 64.
-/
import proofs.«118368_j28595892257584_1_alg».proof.Proof.Gen.ReferenceIdeal.Read
import proofs.«118368_j28595892257584_1_alg».proof.Proof.MeanSpec

noncomputable section

namespace Cert.FeatureMean

open Idealize.ShloMosaic Idealize.ShloMosaic.ValueIdx Cert.ReferenceIdeal Cert.ReferenceIdeal.Read

/-- The column index the reference's three stages compose to: from (n, d, t) the last broadcast reads (n, 0, t),
    the first broadcast reads (n, t), and the sum's k-th term reads (n, k, t). -/
theorem reference_column (i : Arr.Idx) (k : Fin 64) :
    idx_main_v0 (idx_main_v1 (idx_main_v4 i)) k = column i k :=
  funext fun a => Fin.ext (by match a with | ⟨0, _⟩ => rfl | ⟨1, _⟩ => rfl | ⟨2, _⟩ => rfl)

/-- The reference's result, as a function of its first argument, is the feature mean. -/
theorem reference_eq (x : Arr.Idx → EReal) : val_main_v4 (F := Ideal) x = featureMean x := by
  funext i
  rw [val_main_v4_apply, val_main_v3_apply, val_main_v1_apply, val_main_v2_apply, val_main_cst_0_apply,
    val_main_v0_apply, val_main_cst_apply]
  simp only [Ideal.hostDivf_def, Ideal.ofBits_def, Ideal.ofBits_zero_f32, zero_add, reference_column]
  rfl

end Cert.FeatureMean

end
-- ==== Proof.BlockMean.lean ====
/-
  What one grid step leaves in its block.

  A step loads a block P of 256 consecutive rows n, indexed (p, d, t) with p < 256, and stores a block of the same
  shape.  The body sums P over its middle axis, divides by 64 and repeats the quotient along the middle axis; read
  at the exact reals the sum over one axis is a finite sum over that axis's 64 coordinates, so the stored block at
  (p, d, t) is the sum over k of P (p, k, t), divided by 64: the feature mean of the block.
-/
import proofs.«118368_j28595892257584_1_alg».proof.Proof.Gen.KernelIdeal.Value
import Idealize.ShloMosaic.PureOps.Ideal.Laws
import Idealize.ShloMosaic.Lib.ValueIdx

noncomputable section

namespace Cert.FeatureMean

open Idealize.ShloMosaic Idealize.ShloMosaic.ValueIdx Cert.KernelIdeal Cert.KernelIdeal.Gen

/-- Inside a block, the index (p, k, t) of the column through `y = (p, d, t)`. -/
abbrev blockColumn (y : S256x64x64.Idx) (k : Fin 64) : S256x64x64.Idx :=
  ix3 (n0 := 256) (n1 := 64) (n2 := 64) (y 0) k (y 2)

/-- The stored block, entry by entry, is the mean over the middle axis of the loaded block. -/
theorem block_mean (P : FVec Ideal S256x64x64 .f32) (y : S256x64x64.Idx) :
    Cert.KernelIdeal.Value.E1 (F := Ideal) P y
      = Ideal.div (∑ k : Fin 64, P (blockColumn y k)) (Ideal.ofBits .f32 0x42800000#32) := by
  show Ideal.div ((multiReduction .add [1] S256x64 P 0x00000000#32 reduces_S256x64x64_S256x64 (.inl rfl) rfl)
      (Cert.KernelIdeal.Value.ix1_0 y)) (Ideal.ofBits .f32 0x42800000#32) = _
  refine congrArg (Ideal.div · (Ideal.ofBits .f32 0x42800000#32)) ?_
  refine (Ideal.multiReduction_add_single P 0x00000000#32 reduces_S256x64x64_S256x64 (.inl rfl) rfl
    (Cert.KernelIdeal.Value.ix1_0 y)).trans ?_
  refine Finset.sum_congr rfl fun k _ => ?_
  exact congrArg P (funext fun a => Fin.ext (by match a with | ⟨0, _⟩ => rfl | ⟨1, _⟩ => rfl | ⟨2, _⟩ => rfl))

/-- The body's one load and one store both go through the whole block, at offset (0, 0, 0). -/
theorem zero_offsets : (![0, 0, 0] : Fin 3 → Nat) = fun _ => 0 := funext fun a => by fin_cases a <;> rfl

/-- The body's one store covers the whole output block and its one load reads the whole input block `x0`, so the
    output block ends holding the body's value of `x0`, entry by entry. -/
theorem stored_value (x0 : Vec Ideal S256x64x64 .f32) (y : S256x64x64.Idx) :
    out0_1 (F := Ideal) x0 y = Cert.KernelIdeal.Value.E1 (F := Ideal) x0 y := by
  unfold out0_1
  rw [View.ld_unit_zero (S := S256x64x64) zero_offsets]
  exact Cert.KernelIdeal.Value.canon1_eq x0 y

/-- What the body leaves in the output block, as a function of the input block `x0`: the block's feature mean. -/
theorem stored_block (x0 : Vec Ideal S256x64x64 .f32) (y : S256x64x64.Idx) :
    out0_1 (F := Ideal) x0 y
      = Ideal.div (∑ k : Fin 64, x0 (blockColumn y k)) (Ideal.ofBits .f32 0x42800000#32) :=
  (stored_value x0 y).trans (block_mean x0 y)

end Cert.FeatureMean

end
-- ==== Proof.KernelMean.lean ====
/-
  From the blocks to the whole array.

  The grid has 128 steps.  Step t reads the rows 256 t, …, 256 t + 255 of the input (all of the two other axes) and
  writes the same rows of the output: both windows have block index (t, 0, 0), which is decided once over the 128
  steps.  The mean at (n, d, t') depends only on the column (n, ·, t'), which lies inside the block of row n, so what
  step t writes back is exactly the block t of the feature mean of the whole input.  Every row n belongs to the block
  of step n / 256, so the blocks cover the array, and after the run the output array is the feature mean of the input.
-/
import proofs.«118368_j28595892257584_1_alg».proof.Proof.Gen.KernelIdeal.Value
import proofs.«118368_j28595892257584_1_alg».proof.Proof.MeanSpec
import proofs.«118368_j28595892257584_1_alg».proof.Proof.BlockMean

noncomputable section

namespace Cert.FeatureMean

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Step `t` works on block (t, 0, 0) of the input and of the output. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What step `t` writes back is block `t` of the feature mean of the input array. -/
theorem step_writes (c : Dev nD) (t : Fin cfg0.N) :
    (dats m 0 c).flushed 1 t
      = ((cfg0.win 1).blk t).view.read (Elt Ideal) (featureMean (V m c main_arg0)) := by
  rw [Cert.KernelIdeal.Value.flushed1]
  obtain ⟨a0, a1, a2, b0, b1, b2⟩ := block_indices t
  funext j
  show out0_1 (iblk m c 0 t) j = featureMean (V m c main_arg0) (((cfg0.win 1).blk t).view.emb j)
  refine (stored_block (iblk m c 0 t) j).trans ?_
  refine congrArg (Ideal.div · (Ideal.ofBits .f32 0x42800000#32)) (Finset.sum_congr rfl fun k _ => ?_)
  show V m c main_arg0 (((cfg0.win 0).blk t).view.emb (blockColumn j k))
    = V m c main_arg0 (column (((cfg0.win 1).blk t).view.emb j) k)
  refine congrArg (V m c main_arg0) (funext fun a => Fin.ext ?_)
  match a with
  | ⟨0, _⟩ =>
    show win0_0.index t (0 : Fin 3) * 256 + 1 * (j 0).val = win0_1.index t (0 : Fin 3) * 256 + 1 * (j 0).val
    omega
  | ⟨1, _⟩ =>
    show win0_0.index t (1 : Fin 3) * 64 + 1 * k.val = k.val
    omega
  | ⟨2, _⟩ =>
    show win0_0.index t (2 : Fin 3) * 64 + 1 * (j 2).val = win0_1.index t (2 : Fin 3) * 64 + 1 * (j 2).val
    omega

/-- An index of the array is in step `t`'s output block iff each coordinate is in the block's range on its axis. -/
theorem mem_block (t : Fin cfg0.N) (i : S32768x64x64.Idx) :
    i ∈ ((cfg0.win 1).blk t).view.set ↔ ∀ a : Fin 3, win0_1.index t a * S256x64x64.size a ≤ (i a).val
      ∧ (i a).val < win0_1.index t a * S256x64x64.size a + S256x64x64.size a := by
  show i ∈ ((View.whole main_v0).slice (win0_1.rect t)).set ↔ _
  rw [View.set_slice_whole, Rect.mem_set_unit]
  exact Iff.rfl

/-- Row `n` is written by step `n / 256`: the output blocks cover the array. -/
theorem rows_covered (i : S32768x64x64.Idx) :
    ∃ t : Fin cfg0.N, (cfg0.win 1).flush t = true ∧ i ∈ ((cfg0.win 1).blk t).view.set := by
  have hi0 : (i 0).val < 32768 := (i 0).isLt
  have hi1 : (i 1).val < 64 := (i 1).isLt
  have hi2 : (i 2).val < 64 := (i 2).isLt
  have hN : grid0.N = 128 := N_0
  have ht : (i 0).val / 256 < grid0.N := by rw [hN]; omega
  obtain ⟨-, -, -, b0, b1, b2⟩ := block_indices ⟨(i 0).val / 256, ht⟩
  have b0' : win0_1.index ⟨(i 0).val / 256, ht⟩ (0 : Fin 3) = (i 0).val / 256 := b0
  refine ⟨⟨(i 0).val / 256, ht⟩, flush0_1 _, ?_⟩
  rw [mem_block]
  intro a
  match a with
  | ⟨0, _⟩ =>
    show win0_1.index ⟨(i 0).val / 256, ht⟩ (0 : Fin 3) * 256 ≤ (i 0).val
      ∧ (i 0).val < win0_1.index ⟨(i 0).val / 256, ht⟩ (0 : Fin 3) * 256 + 256
    omega
  | ⟨1, _⟩ =>
    show win0_1.index ⟨(i 0).val / 256, ht⟩ (1 : Fin 3) * 64 ≤ (i 1).val
      ∧ (i 1).val < win0_1.index ⟨(i 0).val / 256, ht⟩ (1 : Fin 3) * 64 + 64
    omega
  | ⟨2, _⟩ =>
    show win0_1.index ⟨(i 0).val / 256, ht⟩ (2 : Fin 3) * 64 ≤ (i 2).val
      ∧ (i 2).val < win0_1.index ⟨(i 0).val / 256, ht⟩ (2 : Fin 3) * 64 + 64
    omega

/-- After the run the output array is the feature mean of the input array as launched. -/
theorem output_array (c : Dev nD) :
    (dats m 0 c).arrAt 1 cfg0.N = featureMean (m ((c : Thread nD τ).loc main_arg0)) :=
  (dats m 0 c).arrAt_eq_of_cover 1 (featureMean (V m c main_arg0)) (fun t _ => step_writes m c t) rows_covered

/-- Every weakly fair execution of the kernel ends with the output array at the feature mean of the first argument
    and both arguments unchanged. -/
theorem kernel_run : θ_run defs (onTc (τ := τ) (main (F := Ideal))) ⟨m, fun _ => 0, ρ⟩ fun r => ∀ c : Dev nD,
      r.2.mem ((c : Thread nD τ).loc main_v0) = featureMean (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_array m c), (h c).2⟩)
    (Cert.KernelIdeal.Value.run_blocks m ρ)

end Cert.FeatureMean

end
-- ==== Proof.lean ====
/-
  The kernel and its reference both return, at every index (n, d, t), the mean over the middle axis of the input
  column (n, ·, t): the sum of its 64 entries divided by 64, with the same binary32 divisor on both sides.

  The kernel does it block by block: each of its 128 grid steps loads 256 rows, sums each column, divides and
  repeats the quotient along the column; since a column lies inside one block, the blocks written back are the
  blocks of the whole-array mean, and they cover the output (Proof/BlockMean.lean, Proof/KernelMean.lean).
  The reference does it in one pass over the whole array (Proof/ReferenceMean.lean).  The two sums run over the
  same 64 entries and the initial value 0 of the reference's sum adds nothing, so no law that needs finite
  entries is used: the equality holds on the extended reals whatever the input, and the precondition is never
  opened.  The kernel's idealization rewrote no operation, so nothing is owed for it.
-/
import proofs.«118368_j28595892257584_1_alg».proof.Defs
import proofs.«118368_j28595892257584_1_alg».proof.Proof.Gen.Kernel
import proofs.«118368_j28595892257584_1_alg».proof.Proof.Gen.Kernel.Skeleton
import proofs.«118368_j28595892257584_1_alg».proof.Proof.Gen.Kernel.Launch
import proofs.«118368_j28595892257584_1_alg».proof.Proof.Gen.Kernel.Points
import proofs.«118368_j28595892257584_1_alg».proof.Proof.Gen.Kernel.Frame
import proofs.«118368_j28595892257584_1_alg».proof.Proof.Gen.KernelIdeal
import proofs.«118368_j28595892257584_1_alg».proof.Proof.Gen.KernelIdeal.Skeleton
import proofs.«118368_j28595892257584_1_alg».proof.Proof.Gen.KernelIdeal.Launch
import proofs.«118368_j28595892257584_1_alg».proof.Proof.Gen.KernelIdeal.Points
import proofs.«118368_j28595892257584_1_alg».proof.Proof.Gen.KernelIdeal.Frame
import proofs.«118368_j28595892257584_1_alg».proof.Proof.Gen.ReferenceIdeal
import proofs.«118368_j28595892257584_1_alg».proof.Proof.Gen.Pre_finite_inputs
import proofs.«118368_j28595892257584_1_alg».proof.Proof.Gen.KernelIdeal.Value
import proofs.«118368_j28595892257584_1_alg».proof.Proof.Gen.ReferenceIdeal.Run
import proofs.«118368_j28595892257584_1_alg».proof.Proof.Gen.ReferenceIdeal.Read
import proofs.«118368_j28595892257584_1_alg».proof.Proof.MeanSpec
import proofs.«118368_j28595892257584_1_alg».proof.Proof.ReferenceMean
import proofs.«118368_j28595892257584_1_alg».proof.Proof.BlockMean
import proofs.«118368_j28595892257584_1_alg».proof.Proof.KernelMean
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the exact reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the feature mean of the first argument in their result array. -/
theorem algebraic : Cert.algebraic_KernelIdeal_ReferenceIdeal := by
  intro m ρ m' ρ' _ hagree
  refine ⟨fun c => Cert.FeatureMean.featureMean (m ((c.tc : Thread Cert.KernelIdeal.nD Cert.KernelIdeal.τ).loc Cert.KernelIdeal.main_arg0)),
    Cert.FeatureMean.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.FeatureMean.reference_eq, (hagree c).1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
